-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x128 : Shape := ⟨3, ![32, 4096, 128]⟩
abbrev S128 : Shape := ⟨1, ![128]⟩
abbrev S512x128 : Shape := ⟨2, ![512, 128]⟩
abbrev S128x512 : Shape := ⟨2, ![128, 512]⟩
abbrev S_ : Shape := ⟨0, ![]⟩

class Facts : Prop where
  bcast_S_S32x4096x128 : S_.BroadcastsInDim S32x4096x128 (![] : Fin 0 → Fin S32x4096x128.rank)
  reducesTo_S32x4096x128_S_d0_1_2 : S32x4096x128.ReducesTo [0, 1, 2] S_
  h_S_ : 0 < S_.numel
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  main_v18

def fn {F : FTy → Type} [FloatOps F] (main_arg0 : FVec F S32x4096x128 .f32) (main_arg1 : FVec F S128 .f32) (main_arg2 : FVec F S512x128 .f32) (main_arg3 : FVec F S128x512 .f32) : IVec S_ 1 :=
  let main_v0 : FVec F S32x4096x128 .f32 := Host.absf main_arg0
  let main_cst : FVec F S_ .f32 := constant S_ .f32 0x7F800000#32
  let main_v1 : FVec F S32x4096x128 .f32 := broadcastInDim S32x4096x128 ![] bcast_S_S32x4096x128 main_cst
  let main_v2 : IVec S32x4096x128 1 := cmpf .olt main_v0 main_v1
  let main_c : IVec S_ 1 := constantI S_ 1 1#1
  let main_v3 : IVec S_ 1 := (fun x v => Host.reduce IntOp.andi x v reducesTo_S32x4096x128_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_v13 main_v16
-- ==== Kernel.lean ====
abbrev S32x4096x128 : Shape := ⟨3, ![32, 4096, 128]⟩
abbrev S128 : Shape := ⟨1, ![128]⟩
abbrev S512x128 : Shape := ⟨2, ![512, 128]⟩
abbrev S128x512 : Shape := ⟨2, ![128, 512]⟩
abbrev S131072x128 : Shape := ⟨2, ![131072, 128]⟩
abbrev S1x128 : Shape := ⟨2, ![1, 128]⟩
abbrev S4096x128 : Shape := ⟨2, ![4096, 128]⟩
abbrev S4096x512 : Shape := ⟨2, ![4096, 512]⟩

abbrev nBuf : Space → Nat
  | .hbm => 11
  | .vmem => 7
  | .smem => 0
  | _ => 0

abbrev bufTy : (tb : Table) → Fin (tcTables nBuf tb) → BufTy
  | .hbm, ⟨0, _⟩ => ⟨S32x4096x128, .f32⟩
  | .hbm, ⟨1, _⟩ => ⟨S128, .f32⟩
  | .hbm, ⟨2, _⟩ => ⟨S512x128, .f32⟩
  | .hbm, ⟨3, _⟩ => ⟨S128x512, .f32⟩
  | .hbm, ⟨4, _⟩ => ⟨S131072x128, .f32⟩
  | .hbm, ⟨5, _⟩ => ⟨S128, .f32⟩
  | .hbm, ⟨6, _⟩ => ⟨S1x128, .f32⟩
  | .hbm, ⟨7, _⟩ => ⟨S512x128, .bf16⟩
  | .hbm, ⟨8, _⟩ => ⟨S128x512, .bf16⟩
  | .hbm, ⟨9, _⟩ => ⟨S131072x128, .f32⟩
  | .hbm, ⟨10, _⟩ => ⟨S32x4096x128, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S512x128, .bf16⟩
  | .local _ .vmem, ⟨4, _⟩ => ⟨S128x512, .bf16⟩
  | .local _ .vmem, ⟨5, _⟩ => ⟨S4096x128, .f32⟩
  | .local _ .vmem, ⟨6, _⟩ => ⟨S4096x128, .f32⟩
  | _, _ => ⟨S32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x4096x128_S131072x128 : S32x4096x128.ShapeCasts S131072x128
  shapeCasts_S128_S1x128 : S128.ShapeCasts S1x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  shapeCasts_S131072x128_S32x4096x128 : S131072x128.ShapeCasts S32x4096x128
  dot_S4096x128_S512x128_S4096x512_1_1_0_0_n_n_wf : DotDims.WF S4096x128 S512x128 S4096x512 [1] [1] [0] [0] [] []
  dot_S4096x512_S128x512_S4096x128_1_1_0_0_n_n_wf : DotDims.WF S4096x512 S128x512 S4096x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)

variable [Facts₀]

def dot_S4096x128_S512x128_S4096x512_1_1_0_0_n_n : DotDims S4096x128 S512x128 S4096x512 where
  lhsContracting := [1]
  rhsContracting := [1]
  lhsNonContracting := [0]
  rhsNonContracting := [0]
  lhsBatch := []
  rhsBatch := []
  wf := dot_S4096x128_S512x128_S4096x512_1_1_0_0_n_n_wf
def dot_S4096x512_S128x512_S4096x128_1_1_0_0_n_n : DotDims S4096x512 S128x512 S4096x128 where
  lhsContracting := [1]
  rhsContracting := [1]
  lhsNonContracting := [0]
  rhsNonContracting := [0]
  lhsBatch := []
  rhsBatch := []
  wf := dot_S4096x512_S128x512_S4096x128_1_1_0_0_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4096x128 : Shape := ⟨3, ![32, 4096, 128]⟩
abbrev S128 : Shape := ⟨1, ![128]⟩
abbrev S512x128 : Shape := ⟨2, ![512, 128]⟩
abbrev S128x512 : Shape := ⟨2, ![128, 512]⟩
abbrev S1x1x128 : Shape := ⟨3, ![1, 1, 128]⟩
abbrev S32x4096x512 : Shape := ⟨3, ![32, 4096, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32x4096x128, .f32⟩
  | .hbm, ⟨1, _⟩ => ⟨S128, .f32⟩
  | .hbm, ⟨2, _⟩ => ⟨S512x128, .f32⟩
  | .hbm, ⟨3, _⟩ => ⟨S128x512, .f32⟩
  | .hbm, ⟨4, _⟩ => ⟨S32x4096x128, .f32⟩
  | .hbm, ⟨5, _⟩ => ⟨S128, .f32⟩
  | .hbm, ⟨6, _⟩ => ⟨S1x1x128, .f32⟩
  | .hbm, ⟨7, _⟩ => ⟨S32x4096x128, .f32⟩
  | .hbm, ⟨8, _⟩ => ⟨S32x4096x128, .f32⟩
  | .hbm, ⟨9, _⟩ => ⟨S32x4096x512, .f32⟩
  | .hbm, ⟨10, _⟩ => ⟨S_, .f32⟩
  | .hbm, ⟨11, _⟩ => ⟨S32x4096x512, .f32⟩
  | .hbm, ⟨12, _⟩ => ⟨S32x4096x512, .f32⟩
  | .hbm, ⟨13, _⟩ => ⟨S32x4096x128, .f32⟩
  | _, _ => ⟨S32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x4096x128_0_1_2 : S1x1x128.BroadcastsInDim S32x4096x128 (![0, 1, 2] : Fin 3 → Fin S32x4096x128.rank)
  bcast_S_S32x4096x512 : S_.BroadcastsInDim S32x4096x512 (![] : Fin 0 → Fin S32x4096x512.rank)
  dot_S32x4096x128_S512x128_S32x4096x512_2_1_01_0_n_n_wf : DotDims.WF S32x4096x128 S512x128 S32x4096x512 [2] [1] [0, 1] [0] [] []
  dot_S32x4096x512_S128x512_S32x4096x128_2_1_01_0_n_n_wf : DotDims.WF S32x4096x512 S128x512 S32x4096x128 [2] [1] [0, 1] [0] [] []

variable [Facts₀]

def dot_S32x4096x128_S512x128_S32x4096x512_2_1_01_0_n_n : DotDims S32x4096x128 S512x128 S32x4096x512 where
  lhsContracting := [2]
  rhsContracting := [1]
  lhsNonContracting := [0, 1]
  rhsNonContracting := [0]
  lhsBatch := []
  rhsBatch := []
  wf := dot_S32x4096x128_S512x128_S32x4096x512_2_1_01_0_n_n_wf
def dot_S32x4096x512_S128x512_S32x4096x128_2_1_01_0_n_n : DotDims S32x4096x512 S128x512 S32x4096x128 where
  lhsContracting := [2]
  rhsContracting := [1]
  lhsNonContracting := [0, 1]
  rhsNonContracting := [0]
  lhsBatch := []
  rhsBatch := []
  wf := dot_S32x4096x512_S128x512_S32x4096x128_2_1_01_0_n_n_wf

class Facts : Prop extends Facts₀ where

variable [Facts]
-- ==== Proof.Spec.lean ====
/-
  The function both programs compute, over the extended reals.

  A token is a row of 128 numbers. Its value is a two-layer network without biases: each entry x(e) becomes
  cos x(e) · c(e) for a fixed row c (in both programs c(e) = cos θ(e)), the first layer takes this row to the 512 sums
  Σ_e (cos x(e) · c(e)) · W1(f, e), the positive part max(·, 0) is taken, and the second layer returns the 128 sums
  Σ_f max(…, 0) · W2(c, f). The result array applies this to every token: `whole` over the [32, 4096, 128] layout of the
  tokens, `rows` over the same tokens laid out as the 131072 rows of one matrix.

  The zero of the positive part is kept as the float word 0x00000000 read at the ideal instance: both programs spell
  it with that word, so it is never evaluated.
-/
import Idealize.ShloMosaic.PureOps.Ideal
import Idealize.ShloMosaic.Lib.ValueIdx

noncomputable section

namespace Cert.Ffn

open Idealize.ShloMosaic Idealize.ShloMosaic.ValueIdx

/-- One token's value at output column `c`: `xr` is the token's row, `cr` the row of factors its cosines are scaled by,
    `W1` and `W2` the two layers' weights read by (row, column). -/
def net (xr cr : Fin 128 → EReal) (W1 : Fin 512 → Fin 128 → EReal) (W2 : Fin 128 → Fin 512 → EReal) (c : Fin 128) : EReal :=
  ∑ f : Fin 512, max (∑ e : Fin 128, Ideal.cos (xr e) * cr e * W1 f e) (Ideal.ofBits .f32 0x00000000#32) * W2 c f

/-- The network depends on its four arguments only through their values. -/
theorem net_congr {xr xr' cr cr' : Fin 128 → EReal} {W1 W1' : Fin 512 → Fin 128 → EReal} {W2 W2' : Fin 128 → Fin 512 → EReal}
    (hx : ∀ e, xr e = xr' e) (hc : ∀ e, cr e = cr' e) (h1 : ∀ f e, W1 f e = W1' f e) (h2 : ∀ c f, W2 c f = W2' c f) (c : Fin 128) :
    net xr cr W1 W2 c = net xr' cr' W1' W2' c := by
  obtain rfl : xr = xr' := funext hx
  obtain rfl : cr = cr' := funext hc
  obtain rfl : W1 = W1' := funext fun f => funext (h1 f)
  obtain rfl : W2 = W2' := funext fun c => funext (h2 c)
  rfl

/-- The result over the [32, 4096, 128] layout: entry (b, s, c) is token (b, s)'s value at column `c`, the scaling row the
    cosines of `θ`. -/
def whole (x : FVec Ideal ⟨3, ![32, 4096, 128]⟩ .f32) (θ : FVec Ideal ⟨1, ![128]⟩ .f32)
    (W1 : FVec Ideal ⟨2, ![512, 128]⟩ .f32) (W2 : FVec Ideal ⟨2, ![128, 512]⟩ .f32) : FVec Ideal ⟨3, ![32, 4096, 128]⟩ .f32 :=
  fun i => net (fun e => x (ix3 (i 0) (i 1) e)) (fun e => Ideal.cos (θ (ix1 e))) (fun f e => W1 (ix2 f e)) (fun c f => W2 (ix2 c f)) (i 2)

/-- `whole` at an entry given by its coordinates. -/
theorem whole_at (x : FVec Ideal ⟨3, ![32, 4096, 128]⟩ .f32) (θ : FVec Ideal ⟨1, ![128]⟩ .f32)
    (W1 : FVec Ideal ⟨2, ![512, 128]⟩ .f32) (W2 : FVec Ideal ⟨2, ![128, 512]⟩ .f32) (b : Fin 32) (s : Fin 4096) (c : Fin 128) :
    whole x θ W1 W2 (ix3 b s c)
      = net (fun e => x (ix3 b s e)) (fun e => Ideal.cos (θ (ix1 e))) (fun f e => W1 (ix2 f e)) (fun c f => W2 (ix2 c f)) c := rfl

/-- The result over the tokens as the rows of one [131072, 128] matrix: entry (r, c) is row `r`'s value at column `c`, the
    scaling row given as a [1, 128] array. The weights may be held in any float format: at the ideal instance a
    format is not part of a value. -/
def rows {φ₁ φ₂ : FTy} (X : FVec Ideal ⟨2, ![131072, 128]⟩ .f32) (C : FVec Ideal ⟨2, ![1, 128]⟩ .f32)
    (W1 : FVec Ideal ⟨2, ![512, 128]⟩ φ₁) (W2 : FVec Ideal ⟨2, ![128, 512]⟩ φ₂) : FVec Ideal ⟨2, ![131072, 128]⟩ .f32 :=
  fun j => net (fun e => X (ix2 (j 0) e)) (fun e => C (ix2 (0 : Fin 1) e)) (fun f e => W1 (ix2 f e)) (fun c f => W2 (ix2 c f)) (j 1)

/-- `rows` at an entry given by its coordinates. -/
theorem rows_at {φ₁ φ₂ : FTy} (X : FVec Ideal ⟨2, ![131072, 128]⟩ .f32) (C : FVec Ideal ⟨2, ![1, 128]⟩ .f32)
    (W1 : FVec Ideal ⟨2, ![512, 128]⟩ φ₁) (W2 : FVec Ideal ⟨2, ![128, 512]⟩ φ₂) (r : Fin 131072) (c : Fin 128) :
    rows X C W1 W2 (ix2 r c)
      = net (fun e => X (ix2 r e)) (fun e => C (ix2 (0 : Fin 1) e)) (fun f e => W1 (ix2 f e)) (fun c f => W2 (ix2 c f)) c := rfl

end Cert.Ffn

end
-- ==== Proof.RefSpec.lean ====
/-
  The reference computes `whole`.

  Read one operation at a time, the reference's result at (b, s, c) is the sum over the 512 hidden columns f of
  max(h(b, s, f), 0) · W2(c, f), where h(b, s, f) is the sum over the 128 entries e of (cos x(b, s, e) · cos θ(e)) · W1(f, e):
  the second product contracts the hidden axis against W2's second axis, the first contracts the token's axis against
  W1's second axis, and the row of cos θ reaches entry (b, s, e) through two broadcasts that keep only the last
  coordinate. That is token (b, s)'s network value at column c.
-/
import proofs.«112614_j65481071404696_2_alg».proof.Proof.Gen.ReferenceIdeal.Read
import proofs.«112614_j65481071404696_2_alg».proof.Proof.Spec

noncomputable section

namespace Cert.Ffn

open Idealize.ShloMosaic Idealize.ShloMosaic.ValueIdx
open Cert.ReferenceIdeal Cert.ReferenceIdeal.Read

/-- The second product's left operand index: the output's token, hidden column `f`. -/
theorem lidx7_eq (b : Fin 32) (s : Fin 4096) (c : Fin 128) (f : Fin 512) : lidx_main_v7 (ix3 b s c) f = ix3 b s f :=
  funext fun a => Fin.ext (by match a with | ⟨0, _⟩ => rfl | ⟨1, _⟩ => rfl | ⟨2, _⟩ => rfl)

/-- Its right operand index: W2 at (output column, `f`). -/
theorem ridx7_eq (b : Fin 32) (s : Fin 4096) (c : Fin 128) (f : Fin 512) : ridx_main_v7 (ix3 b s c) f = ix2 c f :=
  funext fun a => Fin.ext (by match a with | ⟨0, _⟩ => rfl | ⟨1, _⟩ => rfl)

/-- The first product's left operand index at hidden entry (b, s, f): the token's entry `e`. -/
theorem lidx5_eq (b : Fin 32) (s : Fin 4096) (f : Fin 512) (e : Fin 128) : lidx_main_v5 (ix3 b s f) e = ix3 b s e :=
  funext fun a => Fin.ext (by match a with | ⟨0, _⟩ => rfl | ⟨1, _⟩ => rfl | ⟨2, _⟩ => rfl)

/-- Its right operand index: W1 at (`f`, `e`). -/
theorem ridx5_eq (b : Fin 32) (s : Fin 4096) (f : Fin 512) (e : Fin 128) : ridx_main_v5 (ix3 b s f) e = ix2 f e :=
  funext fun a => Fin.ext (by match a with | ⟨0, _⟩ => rfl | ⟨1, _⟩ => rfl)

/-- The two broadcasts of the row of cosines read entry (b, s, e) at `e`. -/
theorem bidx_eq (b : Fin 32) (s : Fin 4096) (e : Fin 128) : idx_main_v2 (idx_main_v3 (ix3 b s e)) = ix1 e :=
  funext fun a => Fin.ext (by match a with | ⟨0, _⟩ => rfl)

/-- The scaled cosines at entry (b, s, e). -/
theorem scaled_at (x0 : FVec Ideal S32x4096x128 .f32) (x1 : FVec Ideal S128 .f32) (b : Fin 32) (s : Fin 4096) (e : Fin 128) :
    val_main_v4 (F := Ideal) x0 x1 (ix3 b s e) = Ideal.cos (x0 (ix3 b s e)) * Ideal.cos (x1 (ix1 e)) := by
  rw [val_main_v4_apply, val_main_v0_apply, val_main_v3_apply, val_main_v2_apply, val_main_v1_apply, bidx_eq]
  rfl

/-- The hidden layer after the positive part at entry (b, s, f). -/
theorem hidden_at (x0 : FVec Ideal S32x4096x128 .f32) (x1 : FVec Ideal S128 .f32) (x2 : FVec Ideal S512x128 .f32)
    (b : Fin 32) (s : Fin 4096) (f : Fin 512) :
    val_main_v6 (F := Ideal) x0 x1 x2 (ix3 b s f)
      = max (∑ e : Fin 128, Ideal.cos (x0 (ix3 b s e)) * Ideal.cos (x1 (ix1 e)) * x2 (ix2 f e)) (Ideal.ofBits .f32 0x00000000#32) := by
  rw [val_main_v6_apply, val_main_v5_apply, val_main_call0_v0_apply, val_main_call0_cst_apply]
  refine congrArg (fun z => max z (Ideal.ofBits .f32 0x00000000#32)) (Finset.sum_congr rfl fun e _ => ?_)
  rw [lidx5_eq, ridx5_eq, scaled_at]

/-- The reference's result, as the run states it, is `whole` of the argument arrays. -/
theorem reference_eq (x0 : FVec Ideal S32x4096x128 .f32) (x1 : FVec Ideal S128 .f32) (x2 : FVec Ideal S512x128 .f32)
    (x3 : FVec Ideal S128x512 .f32) : val_main_v7 (F := Ideal) x0 x1 x2 x3 = whole x0 x1 x2 x3 := by
  funext i
  obtain ⟨b, s, c, rfl⟩ : ∃ (b : Fin 32) (s : Fin 4096) (c : Fin 128), i = ix3 b s c := ⟨i 0, i 1, i 2, eq_ix3 i⟩
  rw [val_main_v7_apply, whole_at]
  unfold net
  refine Finset.sum_congr rfl fun f _ => ?_
  rw [lidx7_eq, ridx7_eq, hidden_at]

end Cert.Ffn

end
-- ==== Proof.Payload.lean ====
/-
  What the kernel body stores, at an entry.

  At a grid point the body holds a block of 4096 tokens (x0, a [4096, 128] block), the row of scaling factors
  (x1, [1, 128]) and the two weight matrices (x2 = W1 as [512, 128], x3 = W2 as [128, 512]). It multiplies the cosines of
  the block by the row broadcast down the rows, contracts the result against W1's second axis into a zero accumulator,
  takes the maximum with zero, and contracts that against W2's second axis into a zero accumulator. A product into a
  zero accumulator is the plain sum over the contracted axis; changes of float format are the identity on values. So
  entry (r, c) of what it stores is row r's network value at column c.
-/
import proofs.«112614_j65481071404696_2_alg».proof.Proof.Gen.KernelIdeal.Skeleton
import proofs.«112614_j65481071404696_2_alg».proof.Proof.Spec
import Idealize.ShloMosaic.Lib.Pipeline.Value
import Idealize.ShloMosaic.Lib.ValueIdx
import Idealize.ShloMosaic.PureOps.Ideal.Laws

noncomputable section

namespace Cert.Ffn

open Idealize.ShloMosaic Idealize.ShloMosaic.ValueIdx
open Cert.KernelIdeal Cert.KernelIdeal.Gen

/-- The first product's dimension numbers: [4096, 128] against [512, 128], both second axes contracted. -/
abbrev D1 : DotDims S4096x128 S512x128 S4096x512 := dot_S4096x128_S512x128_S4096x512_1_1_0_0_n_n
/-- The second product's: [4096, 512] against [128, 512], both second axes contracted. -/
abbrev D2 : DotDims S4096x512 S128x512 S4096x128 := dot_S4096x512_S128x512_S4096x128_1_1_0_0_n_n

/-! ## The first product's operand indices, coordinate by coordinate -/

theorem d1_lhs0 (j : S4096x512.Idx) (q : D1.contr.Idx) : (D1.lhsIdx j q 0).val = (j 0).val := by
  unfold DotDims.lhsIdx
  rw [dif_neg (show ¬(0 : Fin S4096x128.rank) ∈ D1.lhsBatch by decide), dif_pos (show (0 : Fin S4096x128.rank) ∈ D1.lhsNonContracting by decide)]
  rfl
theorem d1_lhs1 (j : S4096x512.Idx) (q : D1.contr.Idx) : (D1.lhsIdx j q 1).val = (q ⟨0, by decide⟩).val :=
  D1.lhsIdx_val_of_single rfl j q
theorem d1_rhs0 (j : S4096x512.Idx) (q : D1.contr.Idx) : (D1.rhsIdx j q 0).val = (j 1).val := by
  unfold DotDims.rhsIdx
  rw [dif_neg (show ¬(0 : Fin S512x128.rank) ∈ D1.rhsBatch by decide), dif_pos (show (0 : Fin S512x128.rank) ∈ D1.rhsNonContracting by decide)]
  rfl
theorem d1_rhs1 (j : S4096x512.Idx) (q : D1.contr.Idx) : (D1.rhsIdx j q 1).val = (q ⟨0, by decide⟩).val :=
  D1.rhsIdx_val_of_single rfl j q

/-- The first product into the zero accumulator, at (r, f): the sum over the 128 contracted entries. -/
theorem matmul1_at (A : FVec Ideal S4096x128 .bf16) (B : FVec Ideal S512x128 .bf16) (r : Fin 4096) (f : Fin 512) :
    matmul D1 none A B (constant (F := Ideal) S4096x512 .f32 0x00000000#32) (ix2 r f) = ∑ e : Fin 128, A (ix2 r e) * B (ix2 f e) := by
  simp only [matmul]
  rw [Ideal.matmul_constant_zero_apply, ← Equiv.sum_comp (contrEquiv1 D1 128 rfl rfl).symm]
  refine Finset.sum_congr rfl fun e _ => ?_
  have hk := contrEquiv1_symm_val D1 128 rfl rfl e
  have el : D1.lhsIdx (ix2 r f) ((contrEquiv1 D1 128 rfl rfl).symm e) = ix2 r e := funext fun a => Fin.ext (by
    match a with
    | ⟨0, _⟩ => exact d1_lhs0 _ _
    | ⟨1, _⟩ => exact (d1_lhs1 _ _).trans hk)
  have er : D1.rhsIdx (ix2 r f) ((contrEquiv1 D1 128 rfl rfl).symm e) = ix2 f e := funext fun a => Fin.ext (by
    match a with
    | ⟨0, _⟩ => exact d1_rhs0 _ _
    | ⟨1, _⟩ => exact (d1_rhs1 _ _).trans hk)
  rw [el, er]

/-! ## The second product's operand indices, coordinate by coordinate -/

theorem d2_lhs0 (j : S4096x128.Idx) (q : D2.contr.Idx) : (D2.lhsIdx j q 0).val = (j 0).val := by
  unfold DotDims.lhsIdx
  rw [dif_neg (show ¬(0 : Fin S4096x512.rank) ∈ D2.lhsBatch by decide), dif_pos (show (0 : Fin S4096x512.rank) ∈ D2.lhsNonContracting by decide)]
  rfl
theorem d2_lhs1 (j : S4096x128.Idx) (q : D2.contr.Idx) : (D2.lhsIdx j q 1).val = (q ⟨0, by decide⟩).val :=
  D2.lhsIdx_val_of_single rfl j q
theorem d2_rhs0 (j : S4096x128.Idx) (q : D2.contr.Idx) : (D2.rhsIdx j q 0).val = (j 1).val := by
  unfold DotDims.rhsIdx
  rw [dif_neg (show ¬(0 : Fin S128x512.rank) ∈ D2.rhsBatch by decide), dif_pos (show (0 : Fin S128x512.rank) ∈ D2.rhsNonContracting by decide)]
  rfl
theorem d2_rhs1 (j : S4096x128.Idx) (q : D2.contr.Idx) : (D2.rhsIdx j q 1).val = (q ⟨0, by decide⟩).val :=
  D2.rhsIdx_val_of_single rfl j q

/-- The second product into the zero accumulator, at (r, c): the sum over the 512 contracted entries. -/
theorem matmul2_at (A : FVec Ideal S4096x512 .bf16) (B : FVec Ideal S128x512 .bf16) (r : Fin 4096) (c : Fin 128) :
    matmul D2 none A B (constant (F := Ideal) S4096x128 .f32 0x00000000#32) (ix2 r c) = ∑ f : Fin 512, A (ix2 r f) * B (ix2 c f) := by
  simp only [matmul]
  rw [Ideal.matmul_constant_zero_apply, ← Equiv.sum_comp (contrEquiv1 D2 512 rfl rfl).symm]
  refine Finset.sum_congr rfl fun f _ => ?_
  have hk := contrEquiv1_symm_val D2 512 rfl rfl f
  have el : D2.lhsIdx (ix2 r c) ((contrEquiv1 D2 512 rfl rfl).symm f) = ix2 r f := funext fun a => Fin.ext (by
    match a with
    | ⟨0, _⟩ => exact d2_lhs0 _ _
    | ⟨1, _⟩ => exact (d2_lhs1 _ _).trans hk)
  have er : D2.rhsIdx (ix2 r c) ((contrEquiv1 D2 512 rfl rfl).symm f) = ix2 c f := funext fun a => Fin.ext (by
    match a with
    | ⟨0, _⟩ => exact d2_rhs0 _ _
    | ⟨1, _⟩ => exact (d2_rhs1 _ _).trans hk)
  rw [el, er]

/-! ## The scaling row broadcast down the rows -/

/-- The [1, 128] row broadcast to [4096, 128] reads entry (r, e) at (0, e). -/
theorem row_at (x1 : FVec Ideal S1x128 .f32) (r : Fin 4096) (e : Fin 128) :
    broadcastTo S4096x128 x1 broadcasts_S1x128_S4096x128 (ix2 r e) = x1 (ix2 (0 : Fin 1) e) :=
  broadcastTo_apply x1 broadcasts_S1x128_S4096x128 (ix2 r e) (ix2 (0 : Fin 1) e) (fun a => by
    match a with
    | ⟨0, _⟩ => show (0 : Nat) = if (1 : Nat) = 1 then 0 else r.val; rw [if_pos rfl]
    | ⟨1, _⟩ => show e.val = if (128 : Nat) = 1 then 0 else e.val; rw [if_neg (by decide)])

/-! ## The stored value -/

/-- Entry (r, c) of what the body stores is row r's network value at column c, over the body's four loaded blocks. -/
theorem payload_at (x0 : Vec Ideal S4096x128 .f32) (x1 : Vec Ideal S1x128 .f32) (x2 : Vec Ideal S512x128 .bf16) (x3 : Vec Ideal S128x512 .bf16)
    (r : Fin 4096) (c : Fin 128) :
    k0_pay1 (F := Ideal) x0 x1 x2 x3 (ix2 r c)
      = net (fun e => x0 (ix2 r e)) (fun e => x1 (ix2 (0 : Fin 1) e)) (fun f e => x2 (ix2 f e)) (fun c f => x3 (ix2 c f)) c := by
  unfold k0_pay1 net
  dsimp only
  rw [shapeCast_self, shapeCast_self, shapeCast_self, shapeCast_self]
  refine (matmul2_at _ _ r c).trans ?_
  refine Finset.sum_congr rfl fun f _ => ?_
  refine congrArg (· * x3 (ix2 c f)) ?_
  refine (congrArg (fun z => max z (Ideal.ofBits .f32 0x00000000#32)) (matmul1_at _ _ r f)).trans ?_
  refine congrArg (fun z => max z (Ideal.ofBits .f32 0x00000000#32)) (Finset.sum_congr rfl fun e _ => ?_)
  refine congrArg (· * x2 (ix2 f e)) ?_
  exact congrArg (Ideal.cos (x0 (ix2 r e)) * ·) (row_at x1 r e)

end Cert.Ffn

end
-- ==== Proof.Blocks.lean ====
/-
  From what each grid point writes back to the whole output matrix.

  The grid has 32 points. Point t works on rows t·4096 … t·4096 + 4095 of the token matrix and of the output matrix;
  the scaling row and the two weight matrices are the same whole arrays at every point. By the body's stored value,
  what point t writes back at (r, c) is row t·4096 + r's network value at column c: block t of `rows` of the arrays the
  region finds. The 32 blocks tile the 131072 rows (row R lies in block R / 4096), so after the last write-back the
  output matrix is `rows` of those arrays.
-/
import proofs.«112614_j65481071404696_2_alg».proof.Proof.Gen.KernelIdeal.Frame
import proofs.«112614_j65481071404696_2_alg».proof.Proof.Payload
import Idealize.ShloMosaic.Lib.Pipeline.Value
import Idealize.ShloMosaic.Lib.ValueIdx

set_option maxRecDepth 16384

noncomputable section

namespace Cert.Ffn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- The zero offsets of a whole-block access, however spelt. -/
theorem hz : (![0, 0] : Fin 2 → Nat) = fun _ => 0 := funext fun a => by fin_cases a <;> rfl

/-- Where each window's block sits at point t, decided over the 32 points: the token window and the output window are at
    row block t, column block 0; the scaling row and the weights are always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each input block is its array read where the block sits -/

/-- The token block at point t, row r, is row t·4096 + r of the token matrix. -/
theorem tokens_blk (c : Dev nD) (t : Fin cfg0.N) (r : Fin 4096) (e : Fin 128) (R : Fin 131072) (hR : R.val = t.val * 4096 + r.val) :
    iblk m c 0 t (ix2 r e) = V m c main_v0 (ix2 R e) := by
  obtain ⟨e0, e1, -⟩ := idx_facts t
  show V m c main_v0 (((cfg0.win 0).blk t).view.emb (ix2 r e)) = V m c main_v0 (ix2 R e)
  have h : ((cfg0.win 0).blk t).view.emb (ix2 r e) = ix2 R e := by
    funext a; apply Fin.ext
    match a with
    | ⟨0, _⟩ => show win0_0.index t (0 : Fin 2) * 4096 + 1 * r.val = R.val; omega
    | ⟨1, _⟩ => show win0_0.index t (1 : Fin 2) * 128 + 1 * e.val = e.val; omega
  rw [h]

/-- The scaling-row block is the whole row. -/
theorem cosrow_blk (c : Dev nD) (t : Fin cfg0.N) (e : Fin 128) :
    iblk m c 1 t (ix2 (0 : Fin 1) e) = V m c main_v2 (ix2 (0 : Fin 1) e) := by
  obtain ⟨-, -, e2, e3, -⟩ := idx_facts t
  show V m c main_v2 (((cfg0.win 1).blk t).view.emb (ix2 (0 : Fin 1) e)) = V m c main_v2 (ix2 (0 : Fin 1) e)
  have h : ((cfg0.win 1).blk t).view.emb (ix2 (0 : Fin 1) e) = ix2 (0 : Fin 1) e := by
    funext a; apply Fin.ext
    match a with
    | ⟨0, _⟩ => show win0_1.index t (0 : Fin 2) * 1 + 1 * 0 = 0; omega
    | ⟨1, _⟩ => show win0_1.index t (1 : Fin 2) * 128 + 1 * e.val = e.val; omega
  rw [h]

/-- The first layer's weight block is the whole matrix. -/
theorem w1_blk (c : Dev nD) (t : Fin cfg0.N) (f : Fin 512) (e : Fin 128) :
    iblk m c 2 t (ix2 f e) = V m c main_v3 (ix2 f e) := by
  obtain ⟨-, -, -, -, e4, e5, -⟩ := idx_facts t
  show V m c main_v3 (((cfg0.win 2).blk t).view.emb (ix2 f e)) = V m c main_v3 (ix2 f e)
  have h : ((cfg0.win 2).blk t).view.emb (ix2 f e) = ix2 f e := by
    funext a; apply Fin.ext
    match a with
    | ⟨0, _⟩ => show win0_2.index t (0 : Fin 2) * 512 + 1 * f.val = f.val; omega
    | ⟨1, _⟩ => show win0_2.index t (1 : Fin 2) * 128 + 1 * e.val = e.val; omega
  rw [h]

/-- The second layer's weight block is the whole matrix. -/
theorem w2_blk (c : Dev nD) (t : Fin cfg0.N) (cc : Fin 128) (f : Fin 512) :
    iblk m c 3 t (ix2 cc f) = V m c main_v4 (ix2 cc f) := by
  obtain ⟨-, -, -, -, -, -, e6, e7, -⟩ := idx_facts t
  show V m c main_v4 (((cfg0.win 3).blk t).view.emb (ix2 cc f)) = V m c main_v4 (ix2 cc f)
  have h : ((cfg0.win 3).blk t).view.emb (ix2 cc f) = ix2 cc f := by
    funext a; apply Fin.ext
    match a with
    | ⟨0, _⟩ => show win0_3.index t (0 : Fin 2) * 128 + 1 * cc.val = cc.val; omega
    | ⟨1, _⟩ => show win0_3.index t (1 : Fin 2) * 512 + 1 * f.val = f.val; omega
  rw [h]

/-! ## What a point writes back -/

/-- The matrix the output ends holding: `rows` of the four arrays the region finds. -/
abbrev outMatrix (c : Dev nD) : FVec Ideal S131072x128 .f32 :=
  rows (φ₁ := .bf16) (φ₂ := .bf16) (V m c main_v0) (V m c main_v2) (V m c main_v3) (V m c main_v4)

/-- The body's stored value at (r, c), over point t's blocks, is `outMatrix` where the output block sits. -/
theorem point_eq (c : Dev nD) (t : Fin cfg0.N) (r : Fin 4096) (cc : Fin 128) :
    k0_pay1 (F := Ideal) (iblk m c 0 t) (iblk m c 1 t) (iblk m c 2 t) (iblk m c 3 t) (ix2 r cc)
      = outMatrix m c (((cfg0.win 4).blk t).view.emb (ix2 r cc)) := by
  have ht : t.val < 32 := lt_of_lt_of_eq t.isLt N_0
  have hr : r.val < 4096 := r.isLt
  have hR : t.val * 4096 + r.val < 131072 := by omega
  obtain ⟨-, -, -, -, -, -, -, -, e8, e9⟩ := idx_facts t
  have hemb : ((cfg0.win 4).blk t).view.emb (ix2 r cc) = ix2 (⟨t.val * 4096 + r.val, hR⟩ : Fin 131072) cc := by
    funext a; apply Fin.ext
    match a with
    | ⟨0, _⟩ => show win0_4.index t (0 : Fin 2) * 4096 + 1 * r.val = t.val * 4096 + r.val; omega
    | ⟨1, _⟩ => show win0_4.index t (1 : Fin 2) * 128 + 1 * cc.val = cc.val; omega
  rw [hemb]
  refine (payload_at (iblk m c 0 t) (iblk m c 1 t) (iblk m c 2 t) (iblk m c 3 t) r cc).trans ?_
  refine ((rows_at (φ₁ := .bf16) (φ₂ := .bf16) (V m c main_v0) (V m c main_v2) (V m c main_v3) (V m c main_v4) (⟨t.val * 4096 + r.val, hR⟩ : Fin 131072) cc).trans ?_).symm
  exact (net_congr (fun e => tokens_blk m c t r e (⟨t.val * 4096 + r.val, hR⟩ : Fin 131072) rfl) (fun e => cosrow_blk m c t e)
    (fun f e => w1_blk m c t f e) (fun c' f => w2_blk m c t c' f) cc).symm

/-- What point t writes back is block t of `outMatrix`. -/
theorem flushed_eq (c : Dev nD) (t : Fin cfg0.N) :
    (dats m 0 c).flushed 4 t = ((cfg0.win 4).blk t).view.read (Elt Ideal) (outMatrix m c) := by
  show (cfg0.win 4).cut (grid0.coords t) ((dats m 0 c).after 4 t) = _
  rw [after0_4]
  unfold out0_4
  rw [View.canon_unit_zero hz]
  simp only [View.ld_unit_zero (S := S4096x128) hz, View.ld_unit_zero (S := S1x128) hz, View.ld_unit_zero (S := S512x128) hz,
    View.ld_unit_zero (S := S128x512) hz]
  funext j
  obtain ⟨r, cc, rfl⟩ : ∃ (r : Fin 4096) (cc : Fin 128), j = ix2 r cc := ⟨j 0, j 1, eq_ix2 j⟩
  exact point_eq m c t r cc

/-! ## The blocks tile the matrix -/

/-- An index is in point t's output block iff each coordinate is in the block's range on its axis. -/
theorem mem_blk (t : Fin cfg0.N) (i : S131072x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v5).slice (win0_4.rect t)).set ↔ _
  rw [View.set_slice_whole, Rect.mem_set_unit]
  exact Iff.rfl

/-- Row R is in the block of point R / 4096, which is written back. -/
theorem cover (i : S131072x128.Idx) : ∃ t : Fin cfg0.N, (cfg0.win 4).flush t = true ∧ i ∈ ((cfg0.win 4).blk t).view.set := by
  have hi0 : (i 0).val < 131072 := (i 0).isLt
  have hi1 : (i 1).val < 128 := (i 1).isLt
  have hN : grid0.N = 32 := N_0
  have hlt : (i 0).val / 4096 < grid0.N := by omega
  obtain ⟨-, -, -, -, -, -, -, -, e8, e9⟩ := idx_facts ⟨(i 0).val / 4096, hlt⟩
  refine ⟨⟨(i 0).val / 4096, hlt⟩, flush0_4 _, ?_⟩
  rw [mem_blk]
  intro a
  match a with
  | ⟨0, _⟩ =>
    show win0_4.index ⟨(i 0).val / 4096, hlt⟩ (0 : Fin 2) * 4096 ≤ (i 0).val ∧ (i 0).val < win0_4.index ⟨(i 0).val / 4096, hlt⟩ (0 : Fin 2) * 4096 + 4096
    have e8' : win0_4.index ⟨(i 0).val / 4096, hlt⟩ (0 : Fin 2) = (i 0).val / 4096 := e8
    omega
  | ⟨1, _⟩ =>
    show win0_4.index ⟨(i 0).val / 4096, hlt⟩ (1 : Fin 2) * 128 ≤ (i 1).val ∧ (i 1).val < win0_4.index ⟨(i 0).val / 4096, hlt⟩ (1 : Fin 2) * 128 + 128
    omega

/-! ## The output matrix after the run -/

/-- After the last write-back the output matrix is `outMatrix`. -/
theorem final (c : Dev nD) : (dats m 0 c).arrAt 4 cfg0.N = outMatrix m c :=
  (dats m 0 c).arrAt_eq_of_cover 4 (outMatrix m c) (fun t _ => flushed_eq m c t) cover

end Cert.Ffn

end
-- ==== Proof.HostPre.lean ====
/-
  What the region finds in the arrays the host wrote before it.

  Before the grid starts the host re-lays the [32, 4096, 128] tokens as the 131072 rows of a matrix (row b·4096 + s is
  token (b, s)), takes the cosine of θ and lays it out as one [1, 128] row, and changes the float format of both weight
  matrices, which leaves their values as they are. Read at an index: the token matrix at (b·4096 + s, e) is x(b, s, e),
  the row at (0, e) is cos θ(e), and the weights are W1(f, e) and W2(c, f).
-/
import proofs.«112614_j65481071404696_2_alg».proof.Proof.Gen.KernelIdeal.Frame
import Idealize.ShloMosaic.Lib.Pipeline.Value
import Idealize.ShloMosaic.Lib.ValueIdx
import Idealize.ShloMosaic.Lib.StableHlo.Run

noncomputable section

namespace Cert.Ffn

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-! ## The four arrays as the host operations' terms -/

/-- The token matrix is the tokens re-laid in row-major order. -/
theorem V_tokens (c : Dev nD) : (V m c main_v0 : S131072x128.Idx → EReal)
    = shapeCast S131072x128 (m ((c : Thread nD τ).loc main_arg0)) shapeCasts_S32x4096x128_S131072x128 := by
  show StableHlo.after hostOps0 (fun b => m (c, b)) (Proc.devRef .tc main_v0) = _
  after_results <;> rfl

/-- The scaling row is the cosines of θ laid out as one row. -/
theorem V_cosrow (c : Dev nD) : (V m c main_v2 : S1x128.Idx → EReal)
    = shapeCast S1x128 (Host.cos (F := Ideal) (s := S128) (φ := .f32) (m ((c : Thread nD τ).loc main_arg1))) shapeCasts_S128_S1x128 := by
  show StableHlo.after hostOps0 (fun b => m (c, b)) (Proc.devRef .tc main_v2) = _
  after_results <;> rfl

/-- The first layer's weights under the format change. -/
theorem V_w1 (c : Dev nD) : (V m c main_v3 : S512x128.Idx → EReal)
    = truncf (F := Ideal) .bf16 (m ((c : Thread nD τ).loc main_arg2)) bitsLt_bf16_f32 := by
  show StableHlo.after hostOps0 (fun b => m (c, b)) (Proc.devRef .tc main_v3) = _
  after_results <;> rfl

/-- The second layer's weights under the format change. -/
theorem V_w2 (c : Dev nD) : (V m c main_v4 : S128x512.Idx → EReal)
    = truncf (F := Ideal) .bf16 (m ((c : Thread nD τ).loc main_arg3)) bitsLt_bf16_f32 := by
  show StableHlo.after hostOps0 (fun b => m (c, b)) (Proc.devRef .tc main_v4) = _
  after_results <;> rfl

/-! ## The same, read at an index -/

/-- Row b·4096 + s of the token matrix is token (b, s). -/
theorem tokens_at (c : Dev nD) (b : Fin 32) (s : Fin 4096) (e : Fin 128) (R : Fin 131072) (hR : R.val = b.val * 4096 + s.val) :
    V m c main_v0 (ix2 R e) = m ((c : Thread nD τ).loc main_arg0) (ix3 b s e) := by
  rw [V_tokens]
  refine shapeCast_apply _ _ (ix2 R e) (ix3 b s e) ?_
  rw [Shape.rowMajor_val_three, Shape.rowMajor_val_two]
  show (b.val * 4096 + s.val) * 128 + e.val = R.val * 128 + e.val
  omega

/-- The scaling row at (0, e) is cos θ(e). -/
theorem cosrow_at (c : Dev nD) (e : Fin 128) :
    V m c main_v2 (ix2 (0 : Fin 1) e) = Ideal.cos (m ((c : Thread nD τ).loc main_arg1) (ix1 e)) := by
  rw [V_cosrow]
  refine (shapeCast_apply _ _ (ix2 (0 : Fin 1) e) (ix1 e) ?_).trans rfl
  rw [Shape.rowMajor_val_one, Shape.rowMajor_val_two]
  show e.val = 0 * 128 + e.val
  omega

/-- The first layer's weights are W1's values. -/
theorem w1_at (c : Dev nD) (f : Fin 512) (e : Fin 128) :
    V m c main_v3 (ix2 f e) = m ((c : Thread nD τ).loc main_arg2) (ix2 f e) := by
  rw [V_w1]; rfl

/-- The second layer's weights are W2's values. -/
theorem w2_at (c : Dev nD) (cc : Fin 128) (f : Fin 512) :
    V m c main_v4 (ix2 cc f) = m ((c : Thread nD τ).loc main_arg3) (ix2 cc f) := by
  rw [V_w2]; rfl

end Cert.Ffn

end
-- ==== Proof.KernelRun.lean ====
/-
  The kernel program's result.

  After the grid the host re-lays the [131072, 128] output matrix as [32, 4096, 128]: entry (b, s, c) is the matrix at
  (b·4096 + s, c). The matrix is `rows` of the arrays the region found, and those are the arguments re-laid the same
  way (row b·4096 + s of the token matrix is token (b, s)), the cosines of θ, and the two weight matrices. So entry
  (b, s, c) of the result is token (b, s)'s network value at column c: the result is `whole` of the argument arrays.
-/
import proofs.«112614_j65481071404696_2_alg».proof.Proof.Blocks
import proofs.«112614_j65481071404696_2_alg».proof.Proof.HostPre

set_option maxRecDepth 16384

noncomputable section

namespace Cert.Ffn

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-- The output matrix at row b·4096 + s is token (b, s)'s network value over the argument arrays. -/
theorem outMatrix_at (c : Dev nD) (b : Fin 32) (s : Fin 4096) (cc : Fin 128) (R : Fin 131072) (hR : R.val = b.val * 4096 + s.val) :
    outMatrix m c (ix2 R cc)
      = whole (m ((c : Thread nD τ).loc main_arg0)) (m ((c : Thread nD τ).loc main_arg1)) (m ((c : Thread nD τ).loc main_arg2))
          (m ((c : Thread nD τ).loc main_arg3)) (ix3 b s cc) := by
  rw [whole_at]
  refine (rows_at (φ₁ := .bf16) (φ₂ := .bf16) (V m c main_v0) (V m c main_v2) (V m c main_v3) (V m c main_v4) R cc).trans ?_
  exact net_congr (fun e => tokens_at m c b s e R hR) (fun e => cosrow_at m c e) (fun f e => w1_at m c f e) (fun c' f => w2_at m c c' f) cc

/-- What the host's last operation leaves in the result buffer: `whole` of the argument arrays. -/
theorem result_eq (c : Dev nD) :
    Pipeline.afterTail₀ cfgs (dats m) 0 (V0 m) [hostOps1] c main_v6
      = whole (m ((c : Thread nD τ).loc main_arg0)) (m ((c : Thread nD τ).loc main_arg1)) (m ((c : Thread nD τ).loc main_arg2))
          (m ((c : Thread nD τ).loc main_arg3)) := by
  have hw : Pipeline.withArrays spec0 c (V0 m c) (fun w => (dats m 0 c).arrAt w cfg0.N) (Proc.devRef .tc main_v5) = outMatrix m c :=
    (Pipeline.withArrays_arr spec0 launch0.win.arr_inj c _ _ 4).trans (final m c)
  unfold Pipeline.afterTail₀
  show StableHlo.after hostOps1 _ (Proc.devRef .tc main_v6) = _
  after_results
  funext i
  obtain ⟨b, s, cc, rfl⟩ : ∃ (b : Fin 32) (s : Fin 4096) (cc : Fin 128), i = ix3 b s cc := ⟨i 0, i 1, i 2, eq_ix3 i⟩
  have hb : b.val < 32 := b.isLt
  have hs : s.val < 4096 := s.isLt
  have hR : b.val * 4096 + s.val < 131072 := by omega
  show shapeCast S32x4096x128 (Pipeline.withArrays spec0 c (V0 m c) (fun w => (dats m 0 c).arrAt w cfg0.N) (Proc.devRef .tc main_v5))
    shapeCasts_S131072x128_S32x4096x128 (ix3 b s cc) = _
  rw [hw]
  refine (shapeCast_apply _ _ (ix3 b s cc) (ix2 (⟨b.val * 4096 + s.val, hR⟩ : Fin 131072) cc) ?_).trans
    (outMatrix_at m c b s cc ⟨b.val * 4096 + s.val, hR⟩ rfl)
  rw [Shape.rowMajor_val_three, Shape.rowMajor_val_two]
  show (b.val * 4096 + s.val) * 128 + cc.val = (b.val * 4096 + s.val) * 128 + cc.val
  rfl

/-- The kernel program's run: every weakly fair execution terminates with the result buffer at `whole` of the argument
    arrays and the argument arrays unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v6)
        = whole (m ((c : Thread nD τ).loc main_arg0)) (m ((c : Thread nD τ).loc main_arg1)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Ffn

end
-- ==== Proof.lean ====
/-
  A feed-forward layer over 32 × 4096 tokens of 128 entries: each entry x(b, s, e) becomes cos x(b, s, e) · cos θ(e), a
  first layer without bias takes the 128 entries to 512 (weights W1, [512, 128]), the positive part is taken, and a second
  layer without bias returns 128 entries (weights W2, [128, 512]):

      out(b, s, c) = Σ_f max(Σ_e cos x(b, s, e) · cos θ(e) · W1(f, e), 0) · W2(c, f).

  The kernel program lays the tokens out as the 131072 rows of one matrix, works on 4096 rows per grid point with the
  row of cos θ and both weight matrices held whole (the weights in a narrower float format, which at the ideal instance
  is the same values), forms both products as sums into zero accumulators, and lays the result out as [32, 4096, 128]
  again. The reference computes the same two contractions on the [32, 4096, 128] layout directly. Over the extended
  reals both are literally the sum above — same factors in the same order, same sums — so no law of arithmetic is
  needed and the precondition is never opened.

  The parts: Proof/Spec.lean states the sum (`whole`, and `rows` for the matrix layout); Proof/RefSpec.lean reads the
  reference's result as `whole`; Proof/Payload.lean reads what the kernel body stores at an entry; Proof/HostPre.lean the
  arrays the host prepares before the grid; Proof/Blocks.lean goes from the 32 blocks written back to the whole output
  matrix; Proof/KernelRun.lean reads the result after the final re-layout. The three frame claims are the generated
  frames and the reference's generated run; the idealization rewrote nothing, so there is nothing to preserve.
-/
import proofs.«112614_j65481071404696_2_alg».proof.Defs
import proofs.«112614_j65481071404696_2_alg».proof.Proof.Gen.Kernel
import proofs.«112614_j65481071404696_2_alg».proof.Proof.Gen.Kernel.Skeleton
import proofs.«112614_j65481071404696_2_alg».proof.Proof.Gen.Kernel.Launch
import proofs.«112614_j65481071404696_2_alg».proof.Proof.Gen.Kernel.Points
import proofs.«112614_j65481071404696_2_alg».proof.Proof.Gen.Kernel.Frame
import proofs.«112614_j65481071404696_2_alg».proof.Proof.Gen.KernelIdeal
import proofs.«112614_j65481071404696_2_alg».proof.Proof.Gen.KernelIdeal.Skeleton
import proofs.«112614_j65481071404696_2_alg».proof.Proof.Gen.KernelIdeal.Launch
import proofs.«112614_j65481071404696_2_alg».proof.Proof.Gen.KernelIdeal.Points
import proofs.«112614_j65481071404696_2_alg».proof.Proof.Gen.KernelIdeal.Frame
import proofs.«112614_j65481071404696_2_alg».proof.Proof.Gen.ReferenceIdeal
import proofs.«112614_j65481071404696_2_alg».proof.Proof.Gen.ReferenceIdeal.Run
import proofs.«112614_j65481071404696_2_alg».proof.Proof.Gen.ReferenceIdeal.Read
import proofs.«112614_j65481071404696_2_alg».proof.Proof.Gen.Pre_finite_inputs
import proofs.«112614_j65481071404696_2_alg».proof.Proof.RefSpec
import proofs.«112614_j65481071404696_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result at `whole` of the arguments. -/
theorem algebraic : Cert.algebraic_KernelIdeal_ReferenceIdeal := by
  intro m ρ m' ρ' _ hagree
  refine ⟨_, Cert.Ffn.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.Ffn.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
